-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4x2048x2048 .f32) (main_arg1 : FVec F S2048x2048 .f32) (main_arg2 : FVec F S2048 .f32) (main_arg3 : FVec F S1 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S8192x2048 : Shape := ⟨2, ![8192, 2048]⟩
abbrev S_ : Shape := ⟨0, ![]⟩
abbrev S1x1 : Shape := ⟨2, ![1, 1]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1, .f32⟩
  | .hbm, ⟨4, _⟩ => ⟨S8192x2048, .f32⟩
  | .hbm, ⟨5, _⟩ => ⟨S2048x2048, .f32⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S1x2048, .f32⟩
  | .hbm, ⟨17, _⟩ => ⟨S8192x2048, .f32⟩
  | .hbm, ⟨18, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x2048x2048_S8192x2048 : S4x2048x2048.ShapeCasts S8192x2048
  bitsLt_bf16_f32 : FTy.bits .bf16 < FTy.bits .f32
  transposes_S2048x2048_S2048x2048_1_0 : S2048x2048.Transposes [1, 0] S2048x2048
  reducesTo_S2048x2048_S_d0_1 : S2048x2048.ReducesTo [0, 1] S_
  h_S_ : 0 < S_.numel
  shapeCasts_S1_S_ : S1.ShapeCasts S_
  shapeCasts_S_S1x1 : S_.ShapeCasts S1x1
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  broadcasts_S512x1_S512x2048 : S512x1.Broadcasts S512x2048
  shapeCasts_S8192x2048_S4x2048x2048 : S8192x2048.ShapeCasts S4x2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S1 : Shape := ⟨1, ![1]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x1x1 : Shape := ⟨3, ![1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S1, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S1x1x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S1x1x1, .f32⟩
  | .hbm, ⟨34, _⟩ => ⟨S4x2048x2048, .f32⟩
  | .hbm, ⟨35, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  reducesTo_S2048x2048_S_d0_1 : S2048x2048.ReducesTo [0, 1] S_
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  bcast_S1_S1x1x1_2 : S1.BroadcastsInDim S1x1x1 (![2] : Fin 1 → Fin S1x1x1.rank)
  bcast_S1x1x1_S4x2048x2048_0_1_2 : S1x1x1.BroadcastsInDim S4x2048x2048 (![0, 1, 2] : Fin 3 → Fin S4x2048x2048.rank)
  dot_S4x2048x2048_S2048x2048_S4x2048x2048_2_1_01_0_n_n_wf : DotDims.WF S4x2048x2048 S2048x2048 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf

class Facts : Prop extends Facts₀ where

variable [Facts]
-- ==== Proof.Spec.lean ====
/-
  A linear layer with sign-binarised weights and a per-row activation scale, stated over the extended reals.

  For a row `x` of `K` activations the ROW SCALE is the mean of the absolute values, clamped from below:
  `max ε ((∑ₖ |x k|) / K)`, with `ε` and `K` given by their float words.  For the weight matrix the WEIGHT SCALE is the
  mean of the absolute values of all its entries.  The layer's output at row `r`, column `o` is written here in the
  form that multiplies the raw activations by the weight signs first and applies the scales afterwards:

      (∑ₖ x r k · s k o) · c  +  b o · (rowScale (x r ·) · c),

  where `s` holds the weight signs with the contracted axis first, `b` is the bias row and `c` the one combined
  scalar (the user's scale times the weight scale).
-/
import Idealize.ShloMosaic.PureOps.Ideal
import Idealize.ShloMosaic.PureOps.Ideal.Laws
import Idealize.ShloMosaic.Lib.ValueIdx

noncomputable section

open scoped BigOperators

namespace Cert.SignLinear

open Idealize.ShloMosaic Idealize.ShloMosaic.ValueIdx

/-- The row scale of a row of `K` extended reals: the sum of the absolute values (`|a| = max a (-a)`), divided by the
    float word of `2048`, clamped from below by the float word of `1e-5`. -/
def rowScale {K : ℕ} (xr : Fin K → EReal) : EReal :=
  max (Ideal.ofBits .f32 0x3727C5AC#32)
    (Ideal.div (∑ k : Fin K, max (xr k) (-(xr k))) (Ideal.ofBits .f32 0x45000000#32))

/-- The mean of the absolute values of a finite family: the zero word plus the sum of the absolute values, divided by
    the float word of `4194304 = 2048 · 2048`. -/
def absMean {ι : Type} [Fintype ι] (w : ι → EReal) : EReal :=
  Ideal.div (Ideal.ofBits .f32 0x00000000#32 + ∑ j : ι, max (w j) (-(w j))) (Ideal.ofBits .f32 0x4A800000#32)

/-- The layer on a matrix of `M` rows of `K` activations: the output at `(r, o)` from the activations `X`, the sign matrix
    `S` (contracted axis first), the bias row `B` and the combined scalar `C`. -/
def layer {M K N : ℕ} (X : (⟨2, ![M, K]⟩ : Shape).Idx → EReal) (S : (⟨2, ![K, N]⟩ : Shape).Idx → EReal)
    (B : (⟨2, ![1, N]⟩ : Shape).Idx → EReal) (C : (⟨2, ![1, 1]⟩ : Shape).Idx → EReal) :
    (⟨2, ![M, N]⟩ : Shape).Idx → EReal :=
  fun i => (∑ k : Fin K, X (ix2 (i 0) k) * S (ix2 k (i 1))) * C (ix2 0 0)
    + B (ix2 0 (i 1)) * (rowScale (fun k : Fin K => X (ix2 (i 0) k)) * C (ix2 0 0))

theorem layer_apply {M K N : ℕ} (X : (⟨2, ![M, K]⟩ : Shape).Idx → EReal) (S : (⟨2, ![K, N]⟩ : Shape).Idx → EReal)
    (B : (⟨2, ![1, N]⟩ : Shape).Idx → EReal) (C : (⟨2, ![1, 1]⟩ : Shape).Idx → EReal) (r : Fin M) (o : Fin N) :
    layer X S B C (ix2 r o) = (∑ k : Fin K, X (ix2 r k) * S (ix2 k o)) * C (ix2 0 0)
      + B (ix2 0 o) * (rowScale (fun k : Fin K => X (ix2 r k)) * C (ix2 0 0)) := rfl

/-- Entry `(p, q)` of the layer on a BLOCK of rows is entry `i` of the layer on the whole matrix, when row `p` of the block
    is row `i 0` of the matrix and the sign, bias and scalar blocks are read at column `i 1`. -/
theorem layer_block_eq {M M' K N N' : ℕ}
    (X : (⟨2, ![M, K]⟩ : Shape).Idx → EReal) (S : (⟨2, ![K, N]⟩ : Shape).Idx → EReal)
    (B : (⟨2, ![1, N]⟩ : Shape).Idx → EReal) (C : (⟨2, ![1, 1]⟩ : Shape).Idx → EReal)
    (X' : (⟨2, ![M', K]⟩ : Shape).Idx → EReal) (S' : (⟨2, ![K, N']⟩ : Shape).Idx → EReal)
    (B' : (⟨2, ![1, N']⟩ : Shape).Idx → EReal) (C' : (⟨2, ![1, 1]⟩ : Shape).Idx → EReal)
    (p : Fin M') (q : Fin N') (i : (⟨2, ![M, N]⟩ : Shape).Idx)
    (hX : ∀ k : Fin K, X' (ix2 p k) = X (ix2 (i 0) k)) (hS : ∀ k : Fin K, S' (ix2 k q) = S (ix2 k (i 1)))
    (hB : B' (ix2 0 q) = B (ix2 0 (i 1))) (hC : C' (ix2 0 0) = C (ix2 0 0)) :
    layer X' S' B' C' (ix2 p q) = layer X S B C i := by
  show (∑ k : Fin K, X' (ix2 p k) * S' (ix2 k q)) * C' (ix2 0 0)
      + B' (ix2 0 q) * (rowScale (fun k : Fin K => X' (ix2 p k)) * C' (ix2 0 0))
    = (∑ k : Fin K, X (ix2 (i 0) k) * S (ix2 k (i 1))) * C (ix2 0 0)
      + B (ix2 0 (i 1)) * (rowScale (fun k : Fin K => X (ix2 (i 0) k)) * C (ix2 0 0))
  rw [hB, hC, show (fun k : Fin K => X' (ix2 p k)) = (fun k : Fin K => X (ix2 (i 0) k)) from funext hX]
  exact congrArg (fun z => z * C (ix2 0 0) + B (ix2 0 (i 1)) * (rowScale (fun k : Fin K => X (ix2 (i 0) k)) * C (ix2 0 0)))
    (Finset.sum_congr rfl fun k _ => by rw [hX k, hS k])

end Cert.SignLinear

end
-- ==== Proof.LibDense.lean ====
/-
  General lemmas about plain matrix products at the ideal (extended-real) instance.

  A product of an `M × K` matrix with a `K × N` matrix whose dimension numbers contract the left operand's
  second axis with the right operand's first, read at the entry `(p, q)`, is the finite sum
  `∑ k, a (p, k) * b (k, q)` over `k : Fin K`: the contraction index of the dimension numbers has one axis of
  extent `K`, and the operands' indices at contraction position `k` are `(p, k)` and `(k, q)`.
-/
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- The left operand's index of the plain product at output `(p, q)` and contraction position `k` is `(p, k)`. -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index of the plain product at output `(p, q)` and contraction position `k` is `(k, q)`. -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- The contraction sum of the plain product at `(p, q)`, re-indexed over `Fin K`. -/
theorem plain_sum {M K N : Nat} (a : (⟨2, ![M, K]⟩ : Shape).Idx → EReal) (b : (⟨2, ![K, N]⟩ : Shape).Idx → EReal)
    (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matrix-unit product into the zero accumulator, with plain dimension numbers, read at `(p, q)`. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q) = ∑ k : Fin K, a (ix2 p k) * b (ix2 k q) := by
  subst hD
  simp only [matmul]
  rw [Ideal.matmul_constant_zero_apply]
  exact plain_sum a b p q

/-- The host's `dot_general` with plain dimension numbers, read at `(p, q)`. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  simp only [Host.dotGeneral]
  rw [Ideal.dotGeneral_apply]
  exact plain_sum a b p q

/-- A row vector broadcast down the rows of a matrix, read at `(p, q)`, is the vector at `q`. -/
theorem broadcastTo_row_apply {α : Type} {M N : Nat} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 0 q) := by
  refine broadcastTo_apply v h (ix2 p q) (ix2 0 q) fun a => ?_
  match a with
  | ⟨0, _⟩ => exact (if_pos rfl).symm
  | ⟨1, _⟩ =>
    show q.val = if N = 1 then 0 else q.val
    split
    · have := q.isLt; omega
    · rfl

/-- A vector of length `M` recast as an `M × 1` column, read at `(p, z)`, is the vector at `p`. -/
theorem shapeCast_col_apply {α : Type} {M : Nat} (v : (⟨1, ![M]⟩ : Shape).Idx → α)
    (h : (⟨1, ![M]⟩ : Shape).ShapeCasts ⟨2, ![M, 1]⟩) (p : Fin M) (z : Fin 1) :
    shapeCast ⟨2, ![M, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- The index a sum over the second axis of a matrix visits at row `p` and position `k` is `(p, k)`. -/
theorem reduce_lift {M N : Nat} (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A sum over the second axis of a matrix, read at row `p`. -/
theorem rowSum_apply {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (reduce_lift h p k)

/-- The same for an `f32` sum started from the zero word, with the side conditions spelt as a printed program spells them. -/
theorem rowSum_f32_apply {M N : Nat} (src : FVec Ideal ⟨2, ![M, N]⟩ .f32)
    (h : (⟨2, ![M, N]⟩ : Shape).Reduces [1] ⟨1, ![M]⟩) (hφ : FKind.Formats .f32)
    (hacc : (0x00000000#32 : BitVec 32) = 0x00000000#32) (p : Fin M) :
    multiReduction .add [1] ⟨1, ![M]⟩ src 0x00000000#32 h hφ hacc (ix1 p) = ∑ k : Fin N, src (ix2 p k) :=
  (Ideal.multiReduction_add_single src 0x00000000#32 h hφ hacc (ix1 p)).trans
    (Finset.sum_congr rfl fun k _ => congrArg src (reduce_lift h p k))

/-- A vector of length `N` recast as a `1 × N` row, read at `(z, o)`, is the vector at `o`. -/
theorem shapeCast_row_apply {α : Type} {N : Nat} (v : (⟨1, ![N]⟩ : Shape).Idx → α)
    (h : (⟨1, ![N]⟩ : Shape).ShapeCasts ⟨2, ![1, N]⟩) (z : Fin 1) (o : Fin N) :
    shapeCast ⟨2, ![1, N]⟩ v h (ix2 z o) = v (ix1 o) := by
  refine shapeCast_apply v h (ix2 z o) (ix1 o) ?_
  rw [Shape.rowMajor_val_one, Shape.rowMajor_val_two]
  show o.val = z.val * N + o.val
  have := z.isLt
  have hz : z.val = 0 := by omega
  rw [hz, Nat.zero_mul, Nat.zero_add]

/-- A `1 × N` row recast as a vector of length `N`, read at `o`, is the row at `(0, o)`. -/
theorem shapeCast_unrow_apply {α : Type} {N : Nat} (v : (⟨2, ![1, N]⟩ : Shape).Idx → α)
    (h : (⟨2, ![1, N]⟩ : Shape).ShapeCasts ⟨1, ![N]⟩) (o : Fin N) :
    shapeCast ⟨1, ![N]⟩ v h (ix1 o) = v (ix2 0 o) := by
  refine shapeCast_apply v h (ix1 o) (ix2 0 o) ?_
  rw [Shape.rowMajor_val_one, Shape.rowMajor_val_two]
  show 0 * N + o.val = o.val
  rw [Nat.zero_mul, Nat.zero_add]

/-- The transpose of an `O × K` matrix, read at `(k, o)`, is the matrix at `(o, k)`. -/
theorem transpose2_apply {α : Type} {O K : Nat} (w : (⟨2, ![O, K]⟩ : Shape).Idx → α)
    (h : (⟨2, ![O, K]⟩ : Shape).Transposes [1, 0] ⟨2, ![K, O]⟩) (k : Fin K) (o : Fin O) :
    transpose ⟨2, ![K, O]⟩ [1, 0] w h (ix2 k o) = w (ix2 o k) :=
  transpose_apply [1, 0] w h (ix2 k o) (ix2 o k) fun b => by
    match b with
    | ⟨0, _⟩ => rfl
    | ⟨1, _⟩ => rfl

end Cert.LibDense

end
-- ==== Proof.LibColumn.lean ====
/-
  Two small layout facts read at an entry, generic in the extents: a column `[m, 1]` broadcast across `n` columns, and the
  one entry of a `1 × 1` matrix written as the literal position `(0, 0)`.
-/
import Idealize.ShloMosaic.Lib.ValueIdx
import Idealize.ShloMosaic.Lib.Pipeline.Value

noncomputable section

namespace LibColumn

open Idealize.ShloMosaic Idealize.ShloMosaic.ValueIdx

/-- A column `[M, 1]` broadcast across `N` columns, read at `(p, q)`, is the column at `(p, 0)`. -/
theorem broadcastTo_col_apply {α : Type} {M N : Nat} (v : (⟨2, ![M, 1]⟩ : Shape).Idx → α)
    (h : (⟨2, ![M, 1]⟩ : Shape).Broadcasts ⟨2, ![M, N]⟩) (p : Fin M) (q : Fin N) :
    broadcastTo ⟨2, ![M, N]⟩ v h (ix2 p q) = v (ix2 p 0) := by
  refine broadcastTo_apply v h (ix2 p q) (ix2 p 0) fun a => ?_
  match a with
  | ⟨0, _⟩ =>
    show p.val = if M = 1 then 0 else p.val
    split
    · have := p.isLt; omega
    · rfl
  | ⟨1, _⟩ => exact (if_pos rfl).symm

/-- The entry of a `1 × 1` matrix extracted at the literal position `[0, 0]` is its entry `(0, 0)`. -/
theorem extractAt_zero_zero {α : Type} (x : (⟨2, ![1, 1]⟩ : Shape).Idx → α)
    (h : ∀ a, (![0, 0] : Fin 2 → Nat) a < (⟨2, ![1, 1]⟩ : Shape).size a) :
    extractAt ![0, 0] x h = x (ix2 0 0) := by
  unfold extractAt
  exact congrArg x (funext fun a => Fin.ext (by match a with | ⟨0, _⟩ => rfl | ⟨1, _⟩ => rfl))

end LibColumn

end
-- ==== Proof.Payload.lean ====
/-
  The kernel body's arithmetic at one entry.

  The body loads a block of 512 rows of activations, the whole sign matrix (contracted axis first), the bias row and
  the combined scalar, and stores one value.  Read at row `p`, column `q` that value is

      (∑ₖ x p k · s k q) · c  +  b q · (rowScale (x p ·) · c),

  the layer of `Spec` applied to the four blocks: the matrix product into a zero accumulator is the plain contraction
  sum, the lane reduction is the sum over the row, the change of float format is the identity, and the casts between
  equal shapes, the row and column broadcasts and the scalar splats only move entries.
-/
import proofs.«153732_j14912126451939_2_alg».proof.Proof.Gen.KernelIdeal.Skeleton
import proofs.«153732_j14912126451939_2_alg».proof.Proof.Spec
import proofs.«153732_j14912126451939_2_alg».proof.Proof.LibDense
import proofs.«153732_j14912126451939_2_alg».proof.Proof.LibColumn
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.SignLinear

/-- The stored value at `(p, q)` is the layer of the loaded blocks at `(p, q)`. -/
theorem pay_apply (x0 : Vec Ideal S512x2048 .f32) (x1 : Vec Ideal S2048x2048 .bf16) (x3 : Vec Ideal S1x1 .f32)
    (x2 : Vec Ideal S1x2048 .f32) (p : Fin 512) (q : Fin 2048) :
    k0_pay1 x0 x1 x3 x2 (ix2 p q) = layer (M := 512) (K := 2048) (N := 2048) x0 x1 x2 x3 (ix2 p q) := by
  unfold k0_pay1
  rw [layer_apply]
  refine congrArg₂ (· + ·) (congrArg₂ (· * ·) ?mm ?c) (congrArg₂ (· * ·) ?b ?rs)
  case mm =>
    refine (Cert.LibDense.matmul_plain_apply _ rfl none _ _ p q).trans ?_
    refine Finset.sum_congr rfl fun k _ => ?_
    rw [shapeCast_self, shapeCast_self]
    rfl
  case c => exact LibColumn.extractAt_zero_zero x3 _
  case b =>
    refine (Cert.LibDense.broadcastTo_row_apply _ _ p q).trans ?_
    rw [shapeCast_self]
  case rs =>
    refine (LibColumn.broadcastTo_col_apply _ _ p q).trans ?_
    refine congrArg₂ (· * ·) ?_ (LibColumn.extractAt_zero_zero x3 _)
    unfold rowScale
    refine congrArg₂ max rfl (congrArg₂ Ideal.div ?_ rfl)
    refine (Cert.LibDense.shapeCast_col_apply _ _ p 0).trans ?_
    refine (Cert.LibDense.rowSum_f32_apply _ _ _ _ p).trans ?_
    refine Finset.sum_congr rfl fun k _ => ?_
    rw [shapeCast_self]
    rfl

/-- The stored value of a block of rows is the layer of the whole arrays, entry by entry: entry `j` of the value computed
    from blocks `x0 … x3` is entry `i` of the layer of arrays `X, S, B, C`, when row `j 0` of the activation block is row
    `i 0` of the activations and the other three blocks are read at column `i 1`. -/
theorem block_entry (X : S8192x2048.Idx → EReal) (S : S2048x2048.Idx → EReal) (B : S1x2048.Idx → EReal) (C : S1x1.Idx → EReal)
    (x0 : Vec Ideal S512x2048 .f32) (x1 : Vec Ideal S2048x2048 .bf16) (x2 : Vec Ideal S1x2048 .f32) (x3 : Vec Ideal S1x1 .f32)
    (j : S512x2048.Idx) (i : S8192x2048.Idx)
    (hX : ∀ k : Fin 2048, x0 (ix2 (j 0 : Fin 512) k) = X (ix2 (i 0 : Fin 8192) k))
    (hS : ∀ k : Fin 2048, x1 (ix2 k (j 1 : Fin 2048)) = S (ix2 k (i 1 : Fin 2048)))
    (hB : x2 (ix2 0 (j 1 : Fin 2048)) = B (ix2 0 (i 1 : Fin 2048))) (hC : x3 (ix2 0 0) = C (ix2 0 0)) :
    k0_pay1 x0 x1 x3 x2 j = layer (M := 8192) (K := 2048) (N := 2048) X S B C i := by
  obtain ⟨p, q, rfl⟩ : ∃ (p : Fin 512) (q : Fin 2048), j = ix2 p q := ⟨j 0, j 1, eq_ix2 j⟩
  rw [pay_apply]
  exact layer_block_eq X S B C x0 x1 x2 x3 p q i hX hS hB hC

end Cert.KernelIdeal.Body

end
-- ==== Proof.KernelArray.lean ====
/-
  The array the kernel's region leaves, as one function of the arrays it finds.

  The grid has 16 points; point `t` reads rows `512·t … 512·t + 511` of the activations, the whole sign matrix, bias row
  and scalar, and writes rows `512·t … 512·t + 511` of the output.  What it writes is those rows of the layer of the
  four whole arrays, the blocks of the 16 points tile the output, so the output array is that layer.
-/
import proofs.«153732_j14912126451939_2_alg».proof.Proof.Gen.KernelIdeal.Frame
import proofs.«153732_j14912126451939_2_alg».proof.Proof.Payload
import Idealize.ShloMosaic.Lib.Pipeline.Value

noncomputable section

open scoped BigOperators

namespace Cert.KernelIdeal.Region

open Cert.KernelIdeal Cert.KernelIdeal.Gen Idealize.ShloMosaic Idealize.ShloMosaic.TcCoe Idealize.SL.Sem
open Idealize.ShloMosaic.ValueIdx Cert.SignLinear
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index maps over the grid: the activations and the output move one block of rows per point, the other
    three windows stay at the origin. -/
theorem index_maps : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 15 :=
  (by decide +kernel : ∀ t : Fin grid0.N, _)

/-- Every block of rows of the output is some point's. -/
theorem rows_onto : ∀ q0 : Fin 16, ∃ t : Fin cfg0.N, win0_4.index t = ![q0.val, 0] :=
  (by decide +kernel : ∀ q0 : Fin 16, ∃ t : Fin grid0.N, win0_4.index t = ![q0.val, 0])

/-- What point `t` writes back is block `t` of the layer of the four arrays as the region finds them. -/
theorem flushed_eq (c : Dev nD) (t : Fin cfg0.N) :
    (dats m 0 c).flushed 4 t = ((cfg0.win 4).blk t).view.read (Elt Ideal)
      (layer (M := 8192) (K := 2048) (N := 2048) (V m c main_v0) (V m c main_v3) (V m c main_v10) (V m c main_v9)) := by
  show (cfg0.win 4).cut (grid0.coords t) ((dats m 0 c).after 4 t) = _
  rw [after0_4]
  unfold out0_4
  rw [View.canon_unit_zero origin]
  simp only [View.ld_unit_zero (S := S512x2048) origin, View.ld_unit_zero (S := S2048x2048) origin,
    View.ld_unit_zero (S := S1x1) origin, View.ld_unit_zero (S := S1x2048) origin]
  obtain ⟨e00, e01, e10, e11, e20, e21, e30, e31, e41, _⟩ := index_maps t
  funext j
  show k0_pay1 (iblk m c 0 t) (iblk m c 1 t) (iblk m c 3 t) (iblk m c 2 t) j
    = layer (M := 8192) (K := 2048) (N := 2048) (V m c main_v0) (V m c main_v3) (V m c main_v10) (V m c main_v9)
        (((cfg0.win 4).blk t).view.emb j)
  refine Cert.KernelIdeal.Body.block_entry (V m c main_v0) (V m c main_v3) (V m c main_v10) (V m c main_v9)
    (iblk m c 0 t) (iblk m c 1 t) (iblk m c 2 t) (iblk m c 3 t) j (((cfg0.win 4).blk t).view.emb j) ?_ ?_ ?_ ?_
  · intro k
    show V m c main_v0 (((cfg0.win 0).blk t).view.emb (ix2 (j 0 : Fin 512) k)) = V m c main_v0 _
    refine congrArg (V m c main_v0) (funext fun a => Fin.ext ?_)
    match a with
    | ⟨0, _⟩ =>
      show win0_0.index t (0 : Fin 2) * 512 + 1 * (j 0).val = win0_4.index t (0 : Fin 2) * 512 + 1 * (j 0).val
      omega
    | ⟨1, _⟩ =>
      show win0_0.index t (1 : Fin 2) * 2048 + 1 * k.val = k.val
      omega
  · intro k
    show V m c main_v3 (((cfg0.win 1).blk t).view.emb (ix2 k (j 1 : Fin 2048))) = V m c main_v3 _
    refine congrArg (V m c main_v3) (funext fun a => Fin.ext ?_)
    match a with
    | ⟨0, _⟩ =>
      show win0_1.index t (0 : Fin 2) * 2048 + 1 * k.val = k.val
      omega
    | ⟨1, _⟩ =>
      show win0_1.index t (1 : Fin 2) * 2048 + 1 * (j 1).val = win0_4.index t (1 : Fin 2) * 2048 + 1 * (j 1).val
      omega
  · show V m c main_v10 (((cfg0.win 2).blk t).view.emb (ix2 0 (j 1 : Fin 2048))) = V m c main_v10 _
    refine congrArg (V m c main_v10) (funext fun a => Fin.ext ?_)
    match a with
    | ⟨0, _⟩ =>
      show win0_2.index t (0 : Fin 2) * 1 + 1 * 0 = 0
      omega
    | ⟨1, _⟩ =>
      show win0_2.index t (1 : Fin 2) * 2048 + 1 * (j 1).val = win0_4.index t (1 : Fin 2) * 2048 + 1 * (j 1).val
      omega
  · show V m c main_v9 (((cfg0.win 3).blk t).view.emb (ix2 0 0)) = V m c main_v9 _
    refine congrArg (V m c main_v9) (funext fun a => Fin.ext ?_)
    match a with
    | ⟨0, _⟩ =>
      show win0_3.index t (0 : Fin 2) * 1 + 1 * 0 = 0
      omega
    | ⟨1, _⟩ =>
      show win0_3.index t (1 : Fin 2) * 1 + 1 * 0 = 0
      omega

/-- An index of the output array is in point `t`'s block iff each coordinate is in the block's range on its axis. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v11).slice (win0_4.rect t)).set ↔ _
  rw [View.set_slice_whole, Rect.mem_set_unit]
  exact Iff.rfl

/-- Every index of the output array is in some point's block: row `r` in the block of point `r / 512`. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  obtain ⟨t, ht⟩ := rows_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 2048 ≤ (i 1).val ∧ (i 1).val < win0_4.index t (1 : Fin 2) * 2048 + 2048
    omega

/-- The output array after the region is the layer of the four arrays as the region finds them. -/
theorem final (c : Dev nD) : (dats m 0 c).arrAt 4 cfg0.N
    = layer (M := 8192) (K := 2048) (N := 2048) (V m c main_v0) (V m c main_v3) (V m c main_v10) (V m c main_v9) :=
  (dats m 0 c).arrAt_eq_of_cover 4 _ (fun t _ => flushed_eq m c t) cover

end Cert.KernelIdeal.Region

end
-- ==== Proof.Forward.lean ====
/-
  The whole layer on a batch `[4, 2048, 2048]` of activations, with weights `[2048, 2048]` (output axis first), a bias
  `[2048]` and a one-entry user scale, in the two arrangements the two programs compute.

  SCALES AFTER the contraction (`scaledAfter`): at `(b, s, o)`

      (∑ₖ x b s k · sign (w o k)) · (u · W)  +  bias o · (ρ b s · (u · W)),

  NORMALISE BEFORE it (`normalisedBefore`): at `(b, s, o)`

      (((∑ₖ (x b s k / ρ b s) · ((sign (w o k) − w o k) + w o k)) + bias o) · W) · ρ b s · u,

  where `ρ b s` is the row scale of row `(b, s)`, `W` the mean absolute weight and `u` the user scale.
-/
import proofs.«153732_j14912126451939_2_alg».proof.Proof.Spec

noncomputable section

open scoped BigOperators

namespace Cert.SignLinear

open Idealize.ShloMosaic Idealize.ShloMosaic.ValueIdx

abbrev Acts : Shape := ⟨3, ![4, 2048, 2048]⟩
abbrev Wts : Shape := ⟨2, ![2048, 2048]⟩
abbrev Bias : Shape := ⟨1, ![2048]⟩
abbrev One : Shape := ⟨1, ![1]⟩

/-- Scales applied after the contraction. -/
def scaledAfter (x : Acts.Idx → EReal) (w : Wts.Idx → EReal) (bias : Bias.Idx → EReal) (u : One.Idx → EReal) :
    Acts.Idx → EReal :=
  fun i => (∑ k : Fin 2048, x (ix3 (i 0) (i 1) k) * Ideal.sign (w (ix2 (i 2) k))) * (u (ix1 0) * absMean w)
    + bias (ix1 (i 2)) * (rowScale (fun k : Fin 2048 => x (ix3 (i 0) (i 1) k)) * (u (ix1 0) * absMean w))

theorem scaledAfter_apply (x : Acts.Idx → EReal) (w : Wts.Idx → EReal) (bias : Bias.Idx → EReal) (u : One.Idx → EReal)
    (b : Fin 4) (s o : Fin 2048) :
    scaledAfter x w bias u (ix3 b s o)
      = (∑ k : Fin 2048, x (ix3 b s k) * Ideal.sign (w (ix2 o k))) * (u (ix1 0) * absMean w)
        + bias (ix1 o) * (rowScale (fun k : Fin 2048 => x (ix3 b s k)) * (u (ix1 0) * absMean w)) := rfl

/-- Activations normalised by the row scale before the contraction. -/
def normalisedBefore (x : Acts.Idx → EReal) (w : Wts.Idx → EReal) (bias : Bias.Idx → EReal) (u : One.Idx → EReal) :
    Acts.Idx → EReal :=
  fun i => ((((∑ k : Fin 2048, Ideal.div (x (ix3 (i 0) (i 1) k)) (rowScale (fun k : Fin 2048 => x (ix3 (i 0) (i 1) k)))
        * ((Ideal.sign (w (ix2 (i 2) k)) - w (ix2 (i 2) k)) + w (ix2 (i 2) k)))
      + bias (ix1 (i 2))) * absMean w) * rowScale (fun k : Fin 2048 => x (ix3 (i 0) (i 1) k))) * u (ix1 0)

theorem normalisedBefore_apply (x : Acts.Idx → EReal) (w : Wts.Idx → EReal) (bias : Bias.Idx → EReal) (u : One.Idx → EReal)
    (b : Fin 4) (s o : Fin 2048) :
    normalisedBefore x w bias u (ix3 b s o)
      = ((((∑ k : Fin 2048, Ideal.div (x (ix3 b s k)) (rowScale (fun k : Fin 2048 => x (ix3 b s k)))
            * ((Ideal.sign (w (ix2 o k)) - w (ix2 o k)) + w (ix2 o k)))
          + bias (ix1 o)) * absMean w) * rowScale (fun k : Fin 2048 => x (ix3 b s k))) * u (ix1 0) := rfl

end Cert.SignLinear

end
-- ==== Proof.LibLayout.lean ====
/-
  Reshapes between a rank-3 array and the rank-2 arrays that merge two of its axes, read at an entry: a reshape keeps the
  row-major position, so merging the first two axes sends `(a, b, c)` to `(a·B + b, c)` and merging the last two sends it to
  `(a, b·C + c)`.  (Stacking the two selectors of a pooling into one matrix, laying the nine filter taps out as one tall
  filter, and flattening a feature array per image are such reshapes.)
-/
import Idealize.ShloMosaic.Lib.ValueIdx
import Idealize.ShloMosaic.Lib.Pipeline.Value

noncomputable section

namespace LibLayout

open Idealize.ShloMosaic Idealize.ShloMosaic.ValueIdx

/-- The first two axes merged: entry `(a·B + b, c)` of the matrix is entry `(a, b, c)` of the array. -/
theorem merge01_apply {α : Type} {A B C N : Nat} (v : (⟨3, ![A, B, C]⟩ : Shape).Idx → α)
    (h : (⟨3, ![A, B, C]⟩ : Shape).ShapeCasts ⟨2, ![N, C]⟩) (a : Fin A) (b : Fin B) (c : Fin C) (r : Fin N)
    (hr : r.val = a.val * B + b.val) :
    shapeCast ⟨2, ![N, C]⟩ v h (ix2 r c) = v (ix3 a b c) := by
  refine shapeCast_apply v h (ix2 r c) (ix3 a b c) ?_
  rw [Shape.rowMajor_val_three, Shape.rowMajor_val_two]
  show (a.val * B + b.val) * C + c.val = r.val * C + c.val
  rw [hr]

/-- The last two axes merged: entry `(a, b·C + c)` of the matrix is entry `(a, b, c)` of the array. -/
theorem merge12_apply {α : Type} {A B C N : Nat} (v : (⟨3, ![A, B, C]⟩ : Shape).Idx → α)
    (h : (⟨3, ![A, B, C]⟩ : Shape).ShapeCasts ⟨2, ![A, N]⟩) (hN : N = B * C) (a : Fin A) (b : Fin B) (c : Fin C) (k : Fin N)
    (hk : k.val = b.val * C + c.val) :
    shapeCast ⟨2, ![A, N]⟩ v h (ix2 a k) = v (ix3 a b c) := by
  refine shapeCast_apply v h (ix2 a k) (ix3 a b c) ?_
  rw [Shape.rowMajor_val_three, Shape.rowMajor_val_two]
  show (a.val * B + b.val) * C + c.val = a.val * N + k.val
  rw [hk, hN, Nat.add_mul, Nat.mul_assoc, Nat.add_assoc]

/-- The other way: a matrix split along its rows into `A` blocks of `B` rows, read at `(a, b, c)`. -/
theorem split0_apply {α : Type} {A B C N : Nat} (v : (⟨2, ![N, C]⟩ : Shape).Idx → α)
    (h : (⟨2, ![N, C]⟩ : Shape).ShapeCasts ⟨3, ![A, B, C]⟩) (a : Fin A) (b : Fin B) (c : Fin C) (r : Fin N)
    (hr : r.val = a.val * B + b.val) :
    shapeCast ⟨3, ![A, B, C]⟩ v h (ix3 a b c) = v (ix2 r c) := by
  refine shapeCast_apply v h (ix3 a b c) (ix2 r c) ?_
  rw [Shape.rowMajor_val_three, Shape.rowMajor_val_two]
  show r.val * C + c.val = (a.val * B + b.val) * C + c.val
  rw [hr]

end LibLayout

end
-- ==== Proof.LibScalar.lean ====
/-
  Reshapes to and from the rank-0 shape, read at their one entry: a one-entry vector as a scalar, and a scalar as a
  `1 × 1` matrix.  A reshape keeps the row-major position, which is 0 on every side here.
-/
import Idealize.ShloMosaic.Lib.ValueIdx
import Idealize.ShloMosaic.Lib.Pipeline.Value

noncomputable section

namespace LibScalar

open Idealize.ShloMosaic Idealize.ShloMosaic.ValueIdx

/-- The row-major position of the rank-0 shape's one index is 0. -/
theorem rowMajor_scalar (i : (⟨0, ![]⟩ : Shape).Idx) : ((⟨0, ![]⟩ : Shape).rowMajor i).val = 0 :=
  Shape.rowMajorPi_zero _ _

/-- A one-entry vector reshaped to a scalar is its entry. -/
theorem scalar_of_one_apply {α : Type} (x : (⟨1, ![1]⟩ : Shape).Idx → α)
    (h : (⟨1, ![1]⟩ : Shape).ShapeCasts ⟨0, ![]⟩) (i : (⟨0, ![]⟩ : Shape).Idx) :
    shapeCast ⟨0, ![]⟩ x h i = x (ix1 0) := by
  refine shapeCast_apply x h i (ix1 0) ?_
  rw [Shape.rowMajor_val_one, rowMajor_scalar]
  rfl

/-- A scalar reshaped to a `1 × 1` matrix, read at `(0, 0)`, is the scalar. -/
theorem one_one_of_scalar_apply {α : Type} (y : (⟨0, ![]⟩ : Shape).Idx → α)
    (h : (⟨0, ![]⟩ : Shape).ShapeCasts ⟨2, ![1, 1]⟩) :
    shapeCast ⟨2, ![1, 1]⟩ y h (ix2 0 0) = y ix0 := by
  refine shapeCast_apply y h (ix2 0 0) ix0 ?_
  rw [Shape.rowMajor_val_two, rowMajor_scalar]
  rfl

end LibScalar

end
-- ==== Proof.KernelValue.lean ====
/-
  The kernel program's result as one function of its four arguments.

  Before the region the program reshapes the activations `[4, 2048, 2048]` to `[8192, 2048]` (row `2048·b + s`), takes
  the signs of the weights, changes their float format (the identity on extended reals) and transposes them, forms
  the combined scalar `u · mean |w|` as a `1 × 1` matrix and the bias as a `1 × 2048` row.  The region leaves the layer
  of these four arrays, and the one operation after the region reshapes it back to `[4, 2048, 2048]`.  Read at
  `(b, s, o)` the result is the layer with the scales applied after the contraction.
-/
import proofs.«153732_j14912126451939_2_alg».proof.Proof.Gen.KernelIdeal.Frame
import proofs.«153732_j14912126451939_2_alg».proof.Proof.KernelArray
import proofs.«153732_j14912126451939_2_alg».proof.Proof.Forward
import proofs.«153732_j14912126451939_2_alg».proof.Proof.LibLayout
import proofs.«153732_j14912126451939_2_alg».proof.Proof.LibDense
import proofs.«153732_j14912126451939_2_alg».proof.Proof.LibScalar
import Idealize.ShloMosaic.Lib.Pipeline.Value
import Idealize.ShloMosaic.Lib.StableHlo.Run
import Idealize.ShloMosaic.PureOps.Ideal.Laws

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.SignLinear
open Idealize.ShloMosaic.Pipeline (Dat)

variable (m : (ℓ : Loc nD τ sig) → Buf (Elt Ideal) ℓ) (ρ : Dev nD → PrngReg)

/-! ## The four arrays the region finds -/

/-- The activations as the region finds them: the argument reshaped to `[8192, 2048]`. -/
theorem acts_found (c : Dev nD) : (V m c main_v0 : S8192x2048.Idx → EReal)
    = shapeCast S8192x2048 (m ((c : Thread nD τ).loc main_arg0)) shapeCasts_S4x2048x2048_S8192x2048 := by
  show StableHlo.after hostOps0 (fun b => m (c, b)) (Proc.devRef .tc main_v0) = _
  after_results <;> rfl

/-- The sign matrix as the region finds it: the signs of the weights, contracted axis first. -/
theorem signs_found (c : Dev nD) : (V m c main_v3 : S2048x2048.Idx → EReal)
    = transpose S2048x2048 [1, 0] (truncf .bf16 (Host.sign (F := Ideal) (m ((c : Thread nD τ).loc main_arg1))) bitsLt_bf16_f32)
        transposes_S2048x2048_S2048x2048_1_0 := by
  show StableHlo.after hostOps0 (fun b => m (c, b)) (Proc.devRef .tc main_v3) = _
  after_results <;> rfl

/-- The bias row as the region finds it. -/
theorem bias_found (c : Dev nD) : (V m c main_v10 : S1x2048.Idx → EReal)
    = shapeCast S1x2048 (m ((c : Thread nD τ).loc main_arg2)) shapeCasts_S2048_S1x2048 := by
  show StableHlo.after hostOps0 (fun b => m (c, b)) (Proc.devRef .tc main_v10) = _
  after_results <;> rfl

/-- The combined scalar as the region finds it: the user scale times the mean absolute weight, as a `1 × 1` matrix. -/
theorem scalar_found (c : Dev nD) : (V m c main_v9 : S1x1.Idx → EReal)
    = shapeCast S1x1 (mulf (shapeCast S_ (m ((c : Thread nD τ).loc main_arg3)) shapeCasts_S1_S_)
        (Host.divf (F := Ideal)
          (Host.reduceAdd (F := Ideal) (Host.absf (F := Ideal) (m ((c : Thread nD τ).loc main_arg1)))
            (constant (F := Ideal) S_ .f32 0x00000000#32) reducesTo_S2048x2048_S_d0_1 h_S_)
          (constant (F := Ideal) S_ .f32 0x4A800000#32))) shapeCasts_S_S1x1 := by
  show StableHlo.after hostOps0 (fun b => m (c, b)) (Proc.devRef .tc main_v9) = _
  after_results <;> rfl

/-! ## The four arrays read at an entry -/

/-- Row `2048·b + s` of the reshaped activations is row `(b, s)` of the argument. -/
theorem acts_entry (x : S4x2048x2048.Idx → EReal) (b : Fin 4) (s k : Fin 2048) (r : Fin 8192) (hr : r.val = b.val * 2048 + s.val) :
    shapeCast S8192x2048 x shapeCasts_S4x2048x2048_S8192x2048 (ix2 r k) = x (ix3 b s k) :=
  LibLayout.merge01_apply x _ b s k r hr

/-- The sign matrix at `(k, o)` is the sign of the weight at `(o, k)`. -/
theorem signs_entry (w : S2048x2048.Idx → EReal) (k o : Fin 2048) :
    transpose S2048x2048 [1, 0] (truncf .bf16 (Host.sign (F := Ideal) w) bitsLt_bf16_f32)
        transposes_S2048x2048_S2048x2048_1_0 (ix2 k o) = Ideal.sign (w (ix2 o k)) :=
  Cert.LibDense.transpose2_apply _ _ k o

/-- The bias row at `(0, o)` is the bias at `o`. -/
theorem bias_entry (bias : S2048.Idx → EReal) (o : Fin 2048) :
    shapeCast S1x2048 bias shapeCasts_S2048_S1x2048 (ix2 0 o) = bias (ix1 o) :=
  Cert.LibDense.shapeCast_row_apply bias _ 0 o

/-- The combined scalar's one entry is the user scale times the mean absolute weight. -/
theorem scalar_entry (u : S1.Idx → EReal) (w : S2048x2048.Idx → EReal) :
    shapeCast S1x1 (mulf (shapeCast S_ u shapeCasts_S1_S_)
        (Host.divf (F := Ideal)
          (Host.reduceAdd (F := Ideal) (Host.absf (F := Ideal) w)
            (constant (F := Ideal) S_ .f32 0x00000000#32) reducesTo_S2048x2048_S_d0_1 h_S_)
          (constant (F := Ideal) S_ .f32 0x4A800000#32))) shapeCasts_S_S1x1 (ix2 0 0)
      = u (ix1 0) * absMean w := by
  refine (LibScalar.one_one_of_scalar_apply _ _).trans ?_
  refine congrArg₂ (· * ·) (LibScalar.scalar_of_one_apply u _ ix0) ?_
  unfold absMean
  refine congrArg₂ Ideal.div ?_ rfl
  show Ideal.hostReduceAdd reducesTo_S2048x2048_S_d0_1 (Host.absf (F := Ideal) w) _ ix0 = _
  exact Ideal.hostReduceAdd_total reducesTo_S2048x2048_S_d0_1 (fun b => b.elim0) _ _ ix0

/-! ## The result -/

/-- The output array after the region, as the lines after the region find it. -/
theorem region_array (c : Dev nD) :
    Pipeline.withArrays (cfgs 0).spec c (V0 m c) (fun w => (dats m 0 c).arrAt w (cfgs 0).N) (Proc.devRef .tc main_v11)
      = layer (M := 8192) (K := 2048) (N := 2048) (V m c main_v0) (V m c main_v3) (V m c main_v10) (V m c main_v9) :=
  (Pipeline.withArrays_arr spec0 launch0.win.arr_inj c _ _ 4).trans (Cert.KernelIdeal.Region.final m c)

/-- The program's result buffer after the run: the region's output reshaped to `[4, 2048, 2048]`. -/
theorem result_eq (c : Dev nD) :
    (Pipeline.afterTail₀ cfgs (dats m) 0 (V0 m) [hostOps1] c main_v12 : S4x2048x2048.Idx → EReal)
      = shapeCast S4x2048x2048
          (layer (M := 8192) (K := 2048) (N := 2048) (V m c main_v0) (V m c main_v3) (V m c main_v10) (V m c main_v9))
          shapeCasts_S8192x2048_S4x2048x2048 := by
  unfold Pipeline.afterTail₀
  show StableHlo.after hostOps1 _ (Proc.devRef .tc main_v12) = _
  after_results
  rw [region_array m c]
  rfl

/-- The result, entry by entry: the layer with the scales applied after the contraction. -/
theorem result_value (c : Dev nD) :
    (Pipeline.afterTail₀ cfgs (dats m) 0 (V0 m) [hostOps1] c main_v12 : S4x2048x2048.Idx → EReal)
      = scaledAfter (m ((c : Thread nD τ).loc main_arg0)) (m ((c : Thread nD τ).loc main_arg1))
          (m ((c : Thread nD τ).loc main_arg2)) (m ((c : Thread nD τ).loc main_arg3)) := by
  rw [result_eq, acts_found, signs_found, bias_found, scalar_found]
  funext i
  obtain ⟨b, s, o, rfl⟩ : ∃ (b : Fin 4) (s o : Fin 2048), i = ix3 b s o := ⟨i 0, i 1, i 2, eq_ix3 i⟩
  have hr : b.val * 2048 + s.val < 8192 := by have := b.isLt; have := s.isLt; omega
  rw [LibLayout.split0_apply _ _ b s o ⟨b.val * 2048 + s.val, hr⟩ rfl, layer_apply, scaledAfter_apply,
    bias_entry, scalar_entry]
  simp only [acts_entry _ b s _ ⟨b.val * 2048 + s.val, hr⟩ rfl]
  exact congrArg₂ (· + ·) (congrArg₂ (· * ·)
    (Finset.sum_congr rfl fun k _ => congrArg₂ (· * ·) rfl (signs_entry _ k o)) rfl) rfl

/-! ## The run -/

/-- Every weakly fair execution of the kernel program terminates with its result at the layer with the scales applied
    after the contraction, and its arguments unchanged. -/
theorem run : θ_run defs (onTc (τ := τ) (main (F := Ideal))) ⟨m, fun _ => 0, ρ⟩ fun r => ∀ c : Dev nD,
      r.2.mem ((c.tc : Thread nD τ).loc main_v12)
        = scaledAfter (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference program's result, entry by entry.

  The reference computes the row scale of every row `(b, s)` (sum of absolute values over the last axis, divided by
  2048, clamped from below), divides the activations by it, contracts them with `(sign w − w) + w` over the weights'
  last axis, adds the bias, and multiplies by the mean absolute weight, the row scale and the user scale, in that
  order: the layer with the activations normalised before the contraction.
-/
import proofs.«153732_j14912126451939_2_alg».proof.Proof.Gen.ReferenceIdeal.Read
import proofs.«153732_j14912126451939_2_alg».proof.Proof.Forward
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.SignLinear

/-- The clamped row scale at `(b, s, 0)` is the row scale of row `(b, s)`. -/
theorem row_scale_entry (x0 : S4x2048x2048.Idx → EReal) (b : Fin 4) (s : Fin 2048) :
    val_main_v5 (F := Ideal) x0 (ix3 b s (0 : Fin 1)) = rowScale (fun k : Fin 2048 => x0 (ix3 b s k)) := by
  have e : ∀ k : Fin 2048, idx_main_v1 (idx_main_v2 (ix3 b s (0 : Fin 1))) k = ix3 b s k := fun k =>
    funext fun a => Fin.ext (by match a with | ⟨0, _⟩ => rfl | ⟨1, _⟩ => rfl | ⟨2, _⟩ => rfl)
  rw [val_main_v5_apply, val_main_call0_v1_apply, val_main_call0_v0_apply, val_main_cst_1_apply, val_main_v4_apply,
    val_main_v2_apply, val_main_v1_apply, val_main_v3_apply, val_main_cst_0_apply, val_main_cst_apply]
  unfold rowScale
  simp only [e, val_main_v0_apply, Ideal.maximumf_def, Ideal.hostDivf_def, Ideal.ofBits_def, Ideal.hostAbsf_def,
    Ideal.absf_def, Ideal.ofBits_zero_f32, zero_add]

/-- The reference's result is the layer with the activations normalised before the contraction. -/
theorem reference_value (x0 : S4x2048x2048.Idx → EReal) (x1 : S2048x2048.Idx → EReal) (x2 : S2048.Idx → EReal)
    (x3 : S1.Idx → EReal) :
    val_main_v24 (F := Ideal) x0 x1 x2 x3 = normalisedBefore x0 x1 x2 x3 := by
  funext i
  obtain ⟨b, s, o, rfl⟩ : ∃ (b : Fin 4) (s o : Fin 2048), i = ix3 b s o := ⟨i 0, i 1, i 2, eq_ix3 i⟩
  have el : ∀ k : Fin 2048, lidx_main_v14 (ix3 b s o) k = ix3 b s k := fun k =>
    funext fun a => Fin.ext (by match a with | ⟨0, _⟩ => rfl | ⟨1, _⟩ => rfl | ⟨2, _⟩ => rfl)
  have er : ∀ k : Fin 2048, ridx_main_v14 (ix3 b s o) k = ix2 o k := fun k =>
    funext fun a => Fin.ext (by match a with | ⟨0, _⟩ => rfl | ⟨1, _⟩ => rfl)
  have e6 : ∀ k : Fin 2048, idx_main_v6 (ix3 b s k) = ix3 b s (0 : Fin 1) := fun k =>
    funext fun a => Fin.ext (by match a with | ⟨0, _⟩ => rfl | ⟨1, _⟩ => rfl | ⟨2, _⟩ => rfl)
  have e20 : idx_main_v20 (ix3 b s o) = ix3 b s (0 : Fin 1) :=
    funext fun a => Fin.ext (by match a with | ⟨0, _⟩ => rfl | ⟨1, _⟩ => rfl | ⟨2, _⟩ => rfl)
  have e16 : idx_main_v15 (idx_main_v16 (ix3 b s o)) = ix1 o :=
    funext fun a => Fin.ext (by match a with | ⟨0, _⟩ => rfl)
  have e23 : idx_main_v22 (idx_main_v23 (ix3 b s o)) = ix1 (0 : Fin 1) :=
    funext fun a => Fin.ext (by match a with | ⟨0, _⟩ => rfl)
  rw [normalisedBefore_apply, val_main_v24_apply, val_main_v21_apply, val_main_v19_apply, val_main_v17_apply,
    val_main_v14_apply, val_main_v16_apply, val_main_v15_apply, val_main_v18_apply, val_main_v13_apply,
    val_main_v12_apply, val_main_v20_apply, val_main_v23_apply, val_main_v22_apply, e20, e16, e23, row_scale_entry]
  unfold absMean
  simp only [el, er, val_main_v7_apply, val_main_v6_apply, e6, row_scale_entry, val_main_v10_apply, val_main_v9_apply,
    val_main_v8_apply, val_main_v11_apply, val_main_cst_2_apply, val_main_cst_3_apply, Ideal.mulf_def, Ideal.addf_def,
    Ideal.subf_def, Ideal.hostDivf_def, Ideal.ofBits_def, Ideal.hostAbsf_def, Ideal.absf_def, Ideal.hostUnary_sign_def]

end Cert.ReferenceIdeal.RefValue

end
-- ==== Proof.FiniteInputs.lean ====
/-
  The precondition `finite_inputs` makes every input entry a real number.

  The printed predicate computes, for each of its four float arrays `a`, the conjunction over all
  entries of `|a i| < +∞`, and conjoins the four results. If the result is 1 then each of the four
  all-reductions is 1, so each comparison is 1 at every index, so `max (a i) (-(a i)) < ⊤` for every
  entry; an extended real with that property is neither `⊥` nor `⊤`, hence a real number.
-/
import proofs.«153732_j14912126451939_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The rank-0 shape has exactly one index. -/
instance subsingleton_S_ : Subsingleton S_.Idx := ⟨fun a b => funext fun d => d.elim0⟩

/-- An extended real whose absolute value `max x (-x)` lies strictly below `⊤` is a real number:
    at `⊥` the negation is `⊤`, at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The `f32` pattern `0x7F800000` (sign 0, exponent all ones, significand 0) denotes `+∞`. -/
theorem ofBits_inf : Ideal.ofBits .f32 0x7F800000#32 = (⊤ : EReal) := by
  simp [Ideal.ofBits, Ideal.ieee]

/-- One array of any shape `s`: if the conjunction over all entries of `|a i| < +∞` is 1, every
    entry of `a` is a real number. -/
theorem reals_of_all {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant (F := Ideal) S_ .f32 0x7F800000#32)))
          (constantI S_ 1 1#1) hr hu j = 1#1) :
    ∀ i, ∃ r : ℝ, a i = (r : EReal) := by
  intro i
  have h1 := Host.reduce_andi_all _ _ hr hu j e i
  apply real_of_abs_lt_top
  have h2 : Ideal.cmp .olt (max (a i) (-(a i))) (Ideal.ofBits .f32 0x7F800000#32) = 1#1 := h1
  rw [ofBits_inf] at h2
  have hb1 : ∀ b : Bool, BitVec.ofBool b = 1#1 → b = true := by decide
  have h3 := hb1 _ h2
  simpa using h3

/-- The precondition makes every entry of each of the four input arrays a real number. -/
theorem reals_of_pre [Cert.Pre_finite_inputs.Facts]
    (a0 : FVec Ideal S4x2048x2048 .f32) (a1 : FVec Ideal S2048x2048 .f32) (a2 : FVec Ideal S2048 .f32) (a3 : FVec Ideal S1 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  simp only [andi, IntOp.andi_eq_one] at h0
  obtain ⟨⟨⟨e0, e1⟩, e2⟩, e3⟩ := h0
  exact ⟨reals_of_all a0 _ _ _ _ e0, reals_of_all a1 _ _ _ _ e1, reals_of_all a2 _ _ _ _ e2,
    reals_of_all a3 _ _ _ _ e3⟩

end Cert.FiniteInputs
-- ==== Proof.LibRealSum.lean ====
/-
  Finite sums of real numbers inside the extended reals.

  The extended reals are not a ring: a product does not distribute over a sum when an infinity meets a
  term of the other sign. Every law used by this certificate is therefore proved on the real numbers
  and carried to the extended reals through the coercion, which is additive and multiplicative on
  reals. This module holds the one general fact that makes that possible for sums of any finite length.
-/
import Mathlib

namespace LibRealSum

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end LibRealSum
-- ==== Proof.ScaleLaw.lean ====
/-
  The scaling law of a sign-binarised linear layer, on the real numbers and carried to the extended reals.

  The extended reals are not a ring: a product does not distribute over a sum, and a factor does not cancel against its
  reciprocal, once an infinity is present.  Every statement here is therefore made for real-valued data: each side is
  rewritten into the coercion of ONE real expression (the coercion is additive and multiplicative on reals, and
  commutes with negation, maxima and finite sums), and the identity is then proved on the reals.

  Contents: the three float words the layer uses are the reals `2048`, `4194304 = 2^22` and a positive real
  (`10995116 / 2^40`, the float nearest `1e-5`); the row scale of a real row is a positive real; the mean of absolute
  values of a real family is a real; and THE LAW: for a nonzero real `xs`,

      (∑ₖ x k · sgn (w k)) · (sc · ws) + b · (xs · (sc · ws))
        = ((((∑ₖ (x k / xs) · ((sgn (w k) - w k) + w k)) + b) · ws) · xs) · sc,

  because `(sgn w - w) + w = sgn w`, the common factor `1 / xs` leaves the sum, and `(1 / xs) · xs = 1`.
-/
import proofs.«153732_j14912126451939_2_alg».proof.Proof.Spec
import proofs.«153732_j14912126451939_2_alg».proof.Proof.LibRealSum
import Mathlib

noncomputable section

open scoped BigOperators

namespace Cert.ScaleLaw
open Idealize.ShloMosaic Cert.SignLinear

/-- the float word of 2048 -/
theorem ofBits_2048 : Ideal.ofBits .f32 0x45000000#32 = ((2048 : ℝ) : EReal) := by
  simp [Ideal.ofBits, Ideal.ieee, -EReal.coe_mul]; norm_num

/-- the float word of 4194304 = 2^22 -/
theorem ofBits_4194304 : Ideal.ofBits .f32 0x4A800000#32 = ((4194304 : ℝ) : EReal) := by
  simp [Ideal.ofBits, Ideal.ieee, -EReal.coe_mul]; norm_num

/-- the float word nearest 1e-5 is a positive real (it is 10995116 / 2^40) -/
theorem ofBits_eps : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-- The coercion commutes with the maximum of two reals (it is monotone). -/
theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- The absolute value `max a (-a)` of a real, taken in the extended reals, is the coercion of the real one. -/
theorem abs_coe (a : ℝ) : max (a : EReal) (-(a : EReal)) = ((max a (-a) : ℝ) : EReal) := by
  rw [← EReal.coe_neg, ← coe_max]

/-- the row scale of a real row is a nonzero (indeed positive) real -/
theorem rowScale_real {K : ℕ} (x : Fin K → ℝ) : ∃ s : ℝ, s ≠ 0 ∧ rowScale (fun k => (x k : EReal)) = (s : EReal) := by
  obtain ⟨e, he, hee⟩ := ofBits_eps
  refine ⟨max e ((∑ k : Fin K, max (x k) (-(x k))) * (1 / 2048)), ?_, ?_⟩
  · -- the clamp from below by a positive real makes the scale positive
    exact (lt_of_lt_of_le he (le_max_left _ _)).ne'
  · unfold rowScale
    rw [hee, ofBits_2048, Ideal.div_coe (by norm_num)]
    simp only [abs_coe]
    rw [← LibRealSum.coe_sum, ← EReal.coe_mul, ← coe_max]

/-- the mean of absolute values of a real family is a real -/
theorem absMean_real {ι : Type} [Fintype ι] (w : ι → ℝ) : ∃ a : ℝ, absMean (fun j => (w j : EReal)) = (a : EReal) := by
  refine ⟨(∑ j : ι, max (w j) (-(w j))) * (1 / 4194304), ?_⟩
  unfold absMean
  rw [Ideal.ofBits_zero_f32, zero_add, ofBits_4194304, Ideal.div_coe (by norm_num)]
  simp only [abs_coe]
  rw [← LibRealSum.coe_sum, ← EReal.coe_mul]

/-- THE LAW: scaling after the contraction equals normalising before it. Left: raw activations against the weight signs,
    then the scales. Right: activations divided by the row scale, against (sign w - w) + w, plus the bias, then times the
    weight scale, the row scale and the user scale in that order. -/
theorem scale_law {K : ℕ} (x w : Fin K → ℝ) (b sc ws xs : ℝ) (hxs : xs ≠ 0) :
    (∑ k : Fin K, (x k : EReal) * Ideal.sign (w k : EReal)) * ((sc : EReal) * (ws : EReal))
        + (b : EReal) * ((xs : EReal) * ((sc : EReal) * (ws : EReal)))
      = ((((∑ k : Fin K, Ideal.div (x k : EReal) (xs : EReal) * ((Ideal.sign (w k : EReal) - (w k : EReal)) + (w k : EReal)))
            + (b : EReal)) * (ws : EReal)) * (xs : EReal)) * (sc : EReal) := by
  -- each term of the left sum is the coercion of a real product
  have hL : ∀ k : Fin K, (x k : EReal) * Ideal.sign (w k : EReal)
      = ((x k * (SignType.sign (w k) : ℝ) : ℝ) : EReal) := by
    intro k
    rw [Ideal.sign_coe, EReal.coe_mul]
  -- each term of the right sum is the coercion of a real product; the division by the nonzero real xs is the product
  -- with its reciprocal
  have hR : ∀ k : Fin K,
      Ideal.div (x k : EReal) (xs : EReal) * ((Ideal.sign (w k : EReal) - (w k : EReal)) + (w k : EReal))
        = ((x k * (1 / xs) * (((SignType.sign (w k) : ℝ) - w k) + w k) : ℝ) : EReal) := by
    intro k
    rw [Ideal.div_coe hxs, Ideal.sign_coe, EReal.coe_mul, EReal.coe_mul, EReal.coe_add, EReal.coe_sub]
  simp only [hL, hR]
  rw [← LibRealSum.coe_sum, ← LibRealSum.coe_sum]
  simp only [← EReal.coe_mul, ← EReal.coe_add]
  rw [EReal.coe_eq_coe_iff]
  -- the identity on the reals
  have hterm : ∀ k : Fin K, x k * (1 / xs) * (((SignType.sign (w k) : ℝ) - w k) + w k)
      = (x k * (SignType.sign (w k) : ℝ)) * (1 / xs) := by
    intro k; ring
  simp only [hterm]
  rw [← Finset.sum_mul]
  field_simp

end Cert.ScaleLaw

end
-- ==== Proof.Bridge.lean ====
/-
  The two arrangements of the layer agree on real-valued data.

  When every activation, weight, bias entry and the user scale is a real number, the row scale of each row is a nonzero
  real and the mean absolute weight is a real, so the law of `ScaleLaw` applies at every entry: scaling after the
  contraction equals normalising before it.  (At infinite entries the two sides differ: the extended reals do not
  distribute and do not cancel there.)
-/
import proofs.«153732_j14912126451939_2_alg».proof.Proof.Forward
import proofs.«153732_j14912126451939_2_alg».proof.Proof.ScaleLaw

noncomputable section

open scoped BigOperators

namespace Cert.SignLinear

open Idealize.ShloMosaic Idealize.ShloMosaic.ValueIdx

theorem scaledAfter_eq_normalisedBefore (x : Acts.Idx → EReal) (w : Wts.Idx → EReal) (bias : Bias.Idx → EReal)
    (u : One.Idx → EReal) (hx : ∀ i, ∃ r : ℝ, x i = (r : EReal)) (hw : ∀ i, ∃ r : ℝ, w i = (r : EReal))
    (hb : ∀ i, ∃ r : ℝ, bias i = (r : EReal)) (hu : ∀ i, ∃ r : ℝ, u i = (r : EReal)) :
    scaledAfter x w bias u = normalisedBefore x w bias u := by
  choose X hX using hx
  choose W hW using hw
  choose Bv hB using hb
  choose U hU using hu
  obtain rfl : x = fun i => (X i : EReal) := funext hX
  obtain rfl : w = fun i => (W i : EReal) := funext hW
  obtain rfl : bias = fun i => (Bv i : EReal) := funext hB
  obtain rfl : u = fun i => (U i : EReal) := funext hU
  funext i
  obtain ⟨xs, hxs, exs⟩ := Cert.ScaleLaw.rowScale_real (fun k : Fin 2048 => X (ix3 (i 0) (i 1) k))
  obtain ⟨a, ea⟩ := Cert.ScaleLaw.absMean_real W
  have exs' : rowScale (fun k : Fin 2048 => (X (ix3 (i 0) (i 1) k) : EReal)) = (xs : EReal) := exs
  have ea' : absMean (fun j : Wts.Idx => (W j : EReal)) = (a : EReal) := ea
  unfold scaledAfter normalisedBefore
  dsimp only
  rw [exs', ea']
  exact Cert.ScaleLaw.scale_law (fun k : Fin 2048 => X (ix3 (i 0) (i 1) k)) (fun k : Fin 2048 => W (ix2 (i 2) k))
    (Bv (ix1 (i 2))) (U (ix1 0)) a xs hxs

end Cert.SignLinear

end
-- ==== Proof.lean ====
/-
  A linear layer with sign-binarised weights: a tiled kernel against its plain reference, over the extended reals.

  Both programs take activations `x : [4, 2048, 2048]`, weights `w : [2048, 2048]` (output axis first), a bias `[2048]`
  and a one-entry user scale `u`.  With `ρ b s = max ε (mean_k |x b s k|)` the row scale and `W = mean |w|`:

  • the reference normalises first:   (((∑ₖ (x b s k / ρ b s) · ((sign (w o k) − w o k) + w o k)) + bias o) · W) · ρ b s · u;
  • the kernel scales afterwards:     (∑ₖ x b s k · sign (w o k)) · (u · W) + bias o · (ρ b s · (u · W)),
    computed 512 rows at a time from the reshaped activations, the transposed sign matrix, the bias row and the
    combined scalar `u · W`, and reshaped back.

  The two agree whenever every input entry is a real number — which is what the precondition says —: then `ρ b s` is a
  nonzero real, `(sign w − w) + w = sign w`, the factor `1 / ρ b s` leaves the sum and cancels against `ρ b s`, and the
  products distribute.  None of these steps holds at an infinite entry, so the precondition is used.

  The modules: `Spec` and `Forward` state the layer and its two arrangements; `Payload` reads the kernel body's stored
  value at an entry; `KernelArray` assembles the 16 blocks of rows into the region's output array; `KernelValue` reads
  the arrays the region finds and the reshape after it, and states the kernel program's run; `RefValue` reads the
  reference's run at an entry; `FiniteInputs` turns the precondition into "every entry is real"; `ScaleLaw` proves the
  law on the reals; `Bridge` applies it entry by entry.  The kernel at the word level keeps its frame only; the
  idealised kernel is its own text read at the extended reals (no rewrite was made), so nothing is owed for it.
-/
import proofs.«153732_j14912126451939_2_alg».proof.Defs
import proofs.«153732_j14912126451939_2_alg».proof.Proof.Gen.Kernel
import proofs.«153732_j14912126451939_2_alg».proof.Proof.Gen.Kernel.Skeleton
import proofs.«153732_j14912126451939_2_alg».proof.Proof.Gen.Kernel.Launch
import proofs.«153732_j14912126451939_2_alg».proof.Proof.Gen.Kernel.Points
import proofs.«153732_j14912126451939_2_alg».proof.Proof.Gen.Kernel.Frame
import proofs.«153732_j14912126451939_2_alg».proof.Proof.Gen.KernelIdeal
import proofs.«153732_j14912126451939_2_alg».proof.Proof.Gen.KernelIdeal.Skeleton
import proofs.«153732_j14912126451939_2_alg».proof.Proof.Gen.KernelIdeal.Launch
import proofs.«153732_j14912126451939_2_alg».proof.Proof.Gen.KernelIdeal.Points
import proofs.«153732_j14912126451939_2_alg».proof.Proof.Gen.KernelIdeal.Frame
import proofs.«153732_j14912126451939_2_alg».proof.Proof.Gen.ReferenceIdeal
import proofs.«153732_j14912126451939_2_alg».proof.Proof.Gen.ReferenceIdeal.Run
import proofs.«153732_j14912126451939_2_alg».proof.Proof.Gen.ReferenceIdeal.Read
import proofs.«153732_j14912126451939_2_alg».proof.Proof.Gen.Pre_finite_inputs
import proofs.«153732_j14912126451939_2_alg».proof.Proof.KernelValue
import proofs.«153732_j14912126451939_2_alg».proof.Proof.RefValue
import proofs.«153732_j14912126451939_2_alg».proof.Proof.FiniteInputs
import proofs.«153732_j14912126451939_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealised kernel program. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments, both programs end with the layer's value: the kernel's in the arrangement
    that scales after the contraction, the reference's in the one that normalises before it, equal because the
    precondition makes every entry real. -/
theorem algebraic : Cert.algebraic_KernelIdeal_ReferenceIdeal := by
  intro m ρ m' ρ' hpre hagree
  refine ⟨fun c => Cert.SignLinear.scaledAfter (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.FiniteInputs.reals_of_pre _ _ _ _ (hpre c)
  rw [Cert.ReferenceIdeal.Read.val_main_v24_eq, Cert.ReferenceIdeal.RefValue.reference_value,
    (hagree c).1, (hagree c).2.1, (hagree c).2.2.1, (hagree c).2.2.2]
  exact (Cert.SignLinear.scaledAfter_eq_normalisedBefore _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
